-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S27x64x64 : Shape := ⟨3, ![27, 64, 64]⟩
abbrev S64 : Shape := ⟨1, ![64]⟩
abbrev S27x60000 : Shape := ⟨2, ![27, 60000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S200000x64 .f32) (main_arg1 : FVec F S27x64x64 .f32) (main_arg2 : FVec F S64 .f32) (main_arg3 : IVec S27x60000 32) (main_arg4 : IVec S27x60000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S200000x64 : Shape := ⟨2, ![200000, 64]⟩
abbrev S27x64x64 : Shape := ⟨3, ![27, 64, 64]⟩
abbrev S64 : Shape := ⟨1, ![64]⟩
abbrev S27x60000 : Shape := ⟨2, ![27, 60000]⟩
abbrev S1620000 : Shape := ⟨1, ![1620000]⟩
abbrev S_ : Shape := ⟨0, ![]⟩
abbrev S1620000x1 : Shape := ⟨2, ![1620000, 1]⟩
abbrev S1620000x64 : Shape := ⟨2, ![1620000, 64]⟩
abbrev S27x60000x64 : Shape := ⟨3, ![27, 60000, 64]⟩
abbrev S1x20000x64 : Shape := ⟨3, ![1, 20000, 64]⟩
abbrev S1x64x64 : Shape := ⟨3, ![1, 64, 64]⟩
abbrev S20000x64 : Shape := ⟨2, ![20000, 64]⟩
abbrev S64x64 : Shape := ⟨2, ![64, 64]⟩
abbrev S100000x128 : Shape := ⟨2, ![100000, 128]⟩
abbrev S128 : Shape := ⟨1, ![128]⟩
abbrev S10000x128 : Shape := ⟨2, ![10000, 128]⟩
abbrev S1x128 : Shape := ⟨2, ![1, 128]⟩

abbrev nBuf : Space → Nat
  | .hbm => 37
  | .vmem => 11
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S64, .f32⟩
  | .hbm, ⟨3, _⟩ => ⟨S27x60000, .i32⟩
  | .hbm, ⟨4, _⟩ => ⟨S27x60000, .i32⟩
  | .hbm, ⟨5, _⟩ => ⟨S200000x64, .bf16⟩
  | .hbm, ⟨6, _⟩ => ⟨S27x64x64, .bf16⟩
  | .hbm, ⟨7, _⟩ => ⟨S1620000, .i32⟩
  | .hbm, ⟨8, _⟩ => ⟨S_, .i32⟩
  | .hbm, ⟨9, _⟩ => ⟨S1620000, .i32⟩
  | .hbm, ⟨10, _⟩ => ⟨S1620000, .i1⟩
  | .hbm, ⟨11, _⟩ => ⟨S_, .i32⟩
  | .hbm, ⟨12, _⟩ => ⟨S1620000, .i32⟩
  | .hbm, ⟨13, _⟩ => ⟨S1620000, .i32⟩
  | .hbm, ⟨14, _⟩ => ⟨S1620000, .i32⟩
  | .hbm, ⟨15, _⟩ => ⟨S1620000x1, .i32⟩
  | .hbm, ⟨16, _⟩ => ⟨S1620000x64, .bf16⟩
  | .hbm, ⟨17, _⟩ => ⟨S27x60000x64, .bf16⟩
  | .hbm, ⟨18, _⟩ => ⟨S27x60000x64, .bf16⟩
  | .hbm, ⟨19, _⟩ => ⟨S1620000x64, .bf16⟩
  | .hbm, ⟨20, _⟩ => ⟨S1620000x64, .f32⟩
  | .hbm, ⟨21, _⟩ => ⟨S1620000, .i32⟩
  | .hbm, ⟨22, _⟩ => ⟨S_, .f32⟩
  | .hbm, ⟨23, _⟩ => ⟨S200000x64, .f32⟩
  | .hbm, ⟨24, _⟩ => ⟨S_, .i32⟩
  | .hbm, ⟨25, _⟩ => ⟨S1620000, .i32⟩
  | .hbm, ⟨26, _⟩ => ⟨S1620000, .i1⟩
  | .hbm, ⟨27, _⟩ => ⟨S_, .i32⟩
  | .hbm, ⟨28, _⟩ => ⟨S1620000, .i32⟩
  | .hbm, ⟨29, _⟩ => ⟨S1620000, .i32⟩
  | .hbm, ⟨30, _⟩ => ⟨S1620000, .i32⟩
  | .hbm, ⟨31, _⟩ => ⟨S1620000x1, .i32⟩
  | .hbm, ⟨32, _⟩ => ⟨S200000x64, .f32⟩
  | .hbm, ⟨33, _⟩ => ⟨S100000x128, .f32⟩
  | .hbm, ⟨34, _⟩ => ⟨S128, .f32⟩
  | .hbm, ⟨35, _⟩ => ⟨S100000x128, .f32⟩
  | .hbm, ⟨36, _⟩ => ⟨S200000x64, .f32⟩
  | .local _ .vmem, ⟨0, _⟩ => ⟨S1x20000x64, .bf16⟩
  | .local _ .vmem, ⟨1, _⟩ => ⟨S1x20000x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x20000x64, .bf16⟩
  | .local _ .vmem, ⟨5, _⟩ => ⟨S1x20000x64, .bf16⟩
  | .local _ .vmem, ⟨6, _⟩ => ⟨S10000x128, .f32⟩
  | .local _ .vmem, ⟨7, _⟩ => ⟨S10000x128, .f32⟩
  | .local _ .vmem, ⟨8, _⟩ => ⟨S128, .f32⟩
  | .local _ .vmem, ⟨9, _⟩ => ⟨S10000x128, .f32⟩
  | .local _ .vmem, ⟨10, _⟩ => ⟨S10000x128, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![27, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x20000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x20000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  shapeCasts_S27x60000_S1620000 : S27x60000.ShapeCasts S1620000
  bcast_S_S1620000 : S_.BroadcastsInDim S1620000 (![] : Fin 0 → Fin S1620000.rank)
  bcast_S1620000_S1620000x1_0 : S1620000.BroadcastsInDim S1620000x1 (![0] : Fin 1 → Fin S1620000x1.rank)
  shapeCasts_S1620000x64_S27x60000x64 : S1620000x64.ShapeCasts S27x60000x64
  inb_S1x20000x64_S1x20000x64_0_0_0 : ∀ a, (![0, 0, 0] : Fin 3 → Nat) a + S1x20000x64.size a ≤ S1x20000x64.size a
  h_S1x20000x64 : 0 < S1x20000x64.numel
  shapeCasts_S1x20000x64_S20000x64 : S1x20000x64.ShapeCasts S20000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S20000x64_S1x20000x64 : S20000x64.ShapeCasts S1x20000x64
  packedbf16_S1x20000x64_S1x20000x64_0_0_0 : (Rect.unit (s := S1x20000x64) ![0, 0, 0] S1x20000x64.size inb_S1x20000x64_S1x20000x64_0_0_0).PackedRows (EltTy.packing .bf16)
  shapeCasts_S27x60000x64_S1620000x64 : S27x60000x64.ShapeCasts S1620000x64
  bcast_S_S200000x64 : S_.BroadcastsInDim S200000x64 (![] : Fin 0 → Fin S200000x64.rank)
  shapeCasts_S200000x64_S100000x128 : S200000x64.ShapeCasts S100000x128
  concatenates_S64_S64_S128_d0 : Shape.Concatenates [S64, S64] S128 0
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S10000x128 : S1x128.Broadcasts S10000x128
  shapeCasts_S100000x128_S200000x64 : S100000x128.ShapeCasts S200000x64
  gather_S200000x64_S1620000x1_S1620000x64_1_0_n_n_0_1_164_wf : GatherDims.WF S200000x64 S1620000x1 S1620000x64 [1] [0] [] [0] [] 1 ![1, 64]
  dot_S20000x64_S64x64_S20000x64_1_0_0_1_n_n_wf : DotDims.WF S20000x64 S64x64 S20000x64 [1] [0] [0] [1] [] []
  scatter_S200000x64_S1620000x1_S1620000x64_1_0_0_1_wf : ScatterDims.WF S200000x64 S1620000x1 S1620000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20000x64.size a ≤ S27x60000x64.size a
  hwx0_0 : ∀ i : grid0.Coords, EltTy.bits .bf16 = 32 ∨ (Rect.block (s := S27x60000x64) S1x20000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x20000x64.size a ≤ S27x60000x64.size a
  hwx0_2 : ∀ i : grid0.Coords, EltTy.bits .bf16 = 32 ∨ (Rect.block (s := S27x60000x64) S1x20000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)

variable [Facts₀]

def gather_S200000x64_S1620000x1_S1620000x64_1_0_n_n_0_1_164 : GatherDims S200000x64 S1620000x1 S1620000x64 where
  offsetDims := [1]
  collapsedSliceDims := [0]
  operandBatchingDims := []
  startIndicesBatchingDims := []
  startIndexMap := [0]
  indexVectorDim := 1
  sliceSizes := ![1, 64]
  wf := gather_S200000x64_S1620000x1_S1620000x64_1_0_n_n_0_1_164_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S200000x64_S1620000x1_S1620000x64_1_0_0_1 : ScatterDims S200000x64 S1620000x1 S1620000x64 where
  updateWindowDims := [1]
  insertedWindowDims := [0]
  scatterDimsToOperandDims := [0]
  indexVectorDim := 1
  wf := scatter_S200000x64_S1620000x1_S1620000x64_1_0_0_1_wf

abbrev win0_0 : Pipeline.Window sig grid0 :=
  Pipeline.Window.ofSpec (Memref.whole main_v10) S1x20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x64 : Shape := ⟨2, ![200000, 64]⟩
abbrev S27x64x64 : Shape := ⟨3, ![27, 64, 64]⟩
abbrev S64 : Shape := ⟨1, ![64]⟩
abbrev S27x60000 : Shape := ⟨2, ![27, 60000]⟩
abbrev S_ : Shape := ⟨0, ![]⟩
abbrev S27x60000x1 : Shape := ⟨3, ![27, 60000, 1]⟩
abbrev S27x60000x64 : Shape := ⟨3, ![27, 60000, 64]⟩
abbrev S1620000 : Shape := ⟨1, ![1620000]⟩
abbrev S1620000x64 : Shape := ⟨2, ![1620000, 64]⟩
abbrev S1620000x1 : Shape := ⟨2, ![1620000, 1]⟩
abbrev S1x64 : Shape := ⟨2, ![1, 64]⟩

abbrev nBuf : Space → Nat
  | .hbm => 34
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S64, .f32⟩
  | .hbm, ⟨3, _⟩ => ⟨S27x60000, .i32⟩
  | .hbm, ⟨4, _⟩ => ⟨S27x60000, .i32⟩
  | .hbm, ⟨5, _⟩ => ⟨S_, .i32⟩
  | .hbm, ⟨6, _⟩ => ⟨S27x60000, .i32⟩
  | .hbm, ⟨7, _⟩ => ⟨S27x60000, .i1⟩
  | .hbm, ⟨8, _⟩ => ⟨S_, .i32⟩
  | .hbm, ⟨9, _⟩ => ⟨S27x60000, .i32⟩
  | .hbm, ⟨10, _⟩ => ⟨S27x60000, .i32⟩
  | .hbm, ⟨11, _⟩ => ⟨S27x60000, .i32⟩
  | .hbm, ⟨12, _⟩ => ⟨S27x60000x1, .i32⟩
  | .hbm, ⟨13, _⟩ => ⟨S27x60000x64, .f32⟩
  | .hbm, ⟨14, _⟩ => ⟨S27x60000x64, .f32⟩
  | .hbm, ⟨15, _⟩ => ⟨S_, .f32⟩
  | .hbm, ⟨16, _⟩ => ⟨S200000x64, .f32⟩
  | .hbm, ⟨17, _⟩ => ⟨S1620000, .i32⟩
  | .hbm, ⟨18, _⟩ => ⟨S1620000x64, .f32⟩
  | .hbm, ⟨19, _⟩ => ⟨S_, .i32⟩
  | .hbm, ⟨20, _⟩ => ⟨S1620000, .i32⟩
  | .hbm, ⟨21, _⟩ => ⟨S1620000, .i1⟩
  | .hbm, ⟨22, _⟩ => ⟨S_, .i32⟩
  | .hbm, ⟨23, _⟩ => ⟨S1620000, .i32⟩
  | .hbm, ⟨24, _⟩ => ⟨S1620000, .i32⟩
  | .hbm, ⟨25, _⟩ => ⟨S1620000, .i32⟩
  | .hbm, ⟨26, _⟩ => ⟨S1620000x1, .i32⟩
  | .hbm, ⟨27, _⟩ => ⟨S200000x64, .f32⟩
  | .hbm, ⟨28, _⟩ => ⟨S1x64, .f32⟩
  | .hbm, ⟨29, _⟩ => ⟨S200000x64, .f32⟩
  | .hbm, ⟨30, _⟩ => ⟨S200000x64, .f32⟩
  | .hbm, ⟨31, _⟩ => ⟨S_, .f32⟩
  | .hbm, ⟨32, _⟩ => ⟨S200000x64, .f32⟩
  | .hbm, ⟨33, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S27x60000 : S_.BroadcastsInDim S27x60000 (![] : Fin 0 → Fin S27x60000.rank)
  bcast_S27x60000_S27x60000x1_0_1 : S27x60000.BroadcastsInDim S27x60000x1 (![0, 1] : Fin 2 → Fin S27x60000x1.rank)
  bcast_S_S200000x64 : S_.BroadcastsInDim S200000x64 (![] : Fin 0 → Fin S200000x64.rank)
  shapeCasts_S27x60000_S1620000 : S27x60000.ShapeCasts S1620000
  shapeCasts_S27x60000x64_S1620000x64 : S27x60000x64.ShapeCasts S1620000x64
  bcast_S_S1620000 : S_.BroadcastsInDim S1620000 (![] : Fin 0 → Fin S1620000.rank)
  bcast_S1620000_S1620000x1_0 : S1620000.BroadcastsInDim S1620000x1 (![0] : Fin 1 → Fin S1620000x1.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  gather_S200000x64_S27x60000x1_S27x60000x64_2_0_n_n_0_2_164_wf : GatherDims.WF S200000x64 S27x60000x1 S27x60000x64 [2] [0] [] [0] [] 2 ![1, 64]
  dot_S27x60000x64_S27x64x64_S27x60000x64_2_1_1_2_0_0_wf : DotDims.WF S27x60000x64 S27x64x64 S27x60000x64 [2] [1] [1] [2] [0] [0]
  scatter_S200000x64_S1620000x1_S1620000x64_1_0_0_1_wf : ScatterDims.WF S200000x64 S1620000x1 S1620000x64 [1] [0] [0] 1

variable [Facts₀]

def gather_S200000x64_S27x60000x1_S27x60000x64_2_0_n_n_0_2_164 : GatherDims S200000x64 S27x60000x1 S27x60000x64 where
  offsetDims := [2]
  collapsedSliceDims := [0]
  operandBatchingDims := []
  startIndicesBatchingDims := []
  startIndexMap := [0]
  indexVectorDim := 2
  sliceSizes := ![1, 64]
  wf := gather_S200000x64_S27x60000x1_S27x60000x64_2_0_n_n_0_2_164_wf
def dot_S27x60000x64_S27x64x64_S27x60000x64_2_1_1_2_0_0 : DotDims S27x60000x64 S27x64x64 S27x60000x64 where
  lhsContracting := [2]
  rhsContracting := [1]
  lhsNonContracting := [1]
  rhsNonContracting := [2]
  lhsBatch := [0]
  rhsBatch := [0]
  wf := dot_S27x60000x64_S27x64x64_S27x60000x64_2_1_1_2_0_0_wf
def scatter_S200000x64_S1620000x1_S1620000x64_1_0_0_1 : ScatterDims S200000x64 S1620000x1 S1620000x64 where
  updateWindowDims := [1]
  insertedWindowDims := [0]
  scatterDimsToOperandDims := [0]
  indexVectorDim := 1
  wf := scatter_S200000x64_S1620000x1_S1620000x64_1_0_0_1_wf

class Facts : Prop extends Facts₀ where

variable [Facts]
-- ==== Proof.KernelRun.lean ====
/-
  The idealized kernel's run with its result array named.

  The program is two pipelined regions among three stretches of host operations.  Its run is the run of
  those five segments from the launch memory; after it every unscoped buffer of a core holds the last
  boundary's contents `W5`.  Read at the argument buffers this is the frame; read at the result buffer
  `main_v26` it names the result: whatever the last stretch leaves there.
-/
import proofs.«156856_j9268539425513_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the
    last boundary's contents and the argument arrays end as launched. -/
theorem run_out : θ_run defs (onTc (τ := τ) (main (F := F))) ⟨m, fun _ => 0, ρ⟩ (fun r => ∀ c : Dev nD,
      r.2.mem ((c.tc : Thread nD τ).loc main_v26) = W5 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v26 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.RunValue

end
-- ==== Proof.MatmulBlock.lean ====
/-
  One grid point of the per-offset product.

  The first region's body loads a block `g : [1, 20000, 64]` of gathered rows and the offset's weight
  matrix `w : [1, 64, 64]`, drops the unit axis of each, multiplies them into a zero accumulator, and stores
  the product back under a unit axis.  On the extended reals a change of float format is the identity and the
  product into a zero accumulator is the plain sum over the contracted axis, so the stored block is
  `(u, p, o) ↦ ∑ i, g (0, p, i) · w (0, i, o)`.
-/
import proofs.«156856_j9268539425513_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.MatmulValue

open Cert.KernelIdeal Cert.KernelIdeal.Gen Idealize.ShloMosaic Idealize.ShloMosaic.TcCoe Idealize.ShloMosaic.ValueIdx
open Cert.KernelIdeal.Facts₀

/-- The product's left operand is read at the result's row and the contracted coordinate … -/
theorem lhs_row (j : S20000x64.Idx) (q : dot_S20000x64_S64x64_S20000x64_1_0_0_1_n_n.contr.Idx) : (dot_S20000x64_S64x64_S20000x64_1_0_0_1_n_n.lhsIdx j q 0).val = (j 0).val := by
  unfold DotDims.lhsIdx
  rw [dif_neg (show ¬(0 : Fin S20000x64.rank) ∈ dot_S20000x64_S64x64_S20000x64_1_0_0_1_n_n.lhsBatch by decide),
    dif_pos (show (0 : Fin S20000x64.rank) ∈ dot_S20000x64_S64x64_S20000x64_1_0_0_1_n_n.lhsNonContracting by decide)]
  rfl
theorem lhs_contr (j : S20000x64.Idx) (q : dot_S20000x64_S64x64_S20000x64_1_0_0_1_n_n.contr.Idx) : (dot_S20000x64_S64x64_S20000x64_1_0_0_1_n_n.lhsIdx j q 1).val = (q ⟨0, by decide⟩).val :=
  dot_S20000x64_S64x64_S20000x64_1_0_0_1_n_n.lhsIdx_val_of_single rfl j q
/-- … and its right operand at the contracted coordinate and the result's column. -/
theorem rhs_contr (j : S20000x64.Idx) (q : dot_S20000x64_S64x64_S20000x64_1_0_0_1_n_n.contr.Idx) : (dot_S20000x64_S64x64_S20000x64_1_0_0_1_n_n.rhsIdx j q 0).val = (q ⟨0, by decide⟩).val :=
  dot_S20000x64_S64x64_S20000x64_1_0_0_1_n_n.rhsIdx_val_of_single rfl j q
theorem rhs_col (j : S20000x64.Idx) (q : dot_S20000x64_S64x64_S20000x64_1_0_0_1_n_n.contr.Idx) : (dot_S20000x64_S64x64_S20000x64_1_0_0_1_n_n.rhsIdx j q 1).val = (j 1).val := by
  unfold DotDims.rhsIdx
  rw [dif_neg (show ¬(1 : Fin S64x64.rank) ∈ dot_S20000x64_S64x64_S20000x64_1_0_0_1_n_n.rhsBatch by decide),
    dif_pos (show (1 : Fin S64x64.rank) ∈ dot_S20000x64_S64x64_S20000x64_1_0_0_1_n_n.rhsNonContracting by decide)]
  rfl

/-- The stored block, element by element: the sum over the contracted axis of the gathered row's entry times the
    weight's. -/
theorem block_prod (x0 : Vec Ideal S1x20000x64 .bf16) (x1 : Vec Ideal S1x64x64 .bf16) (u : Fin 1) (p : Fin 20000) (o : Fin 64) :
    k0_pay1 x0 x1 (ix3 u p o) = ∑ i : Fin 64, x0 (ix3 (0 : Fin 1) p i) * x1 (ix3 (0 : Fin 1) i o) := by
  unfold k0_pay1
  refine (shapeCast_addUnit_apply ![20000, 64] _ _ (ix3 u p o)).trans ?_
  have e : (fun a : Fin 2 => (ix3 u p o) a.succ) = ix2 p o := funext fun a => by
    match a with
    | ⟨0, _⟩ => rfl
    | ⟨1, _⟩ => rfl
  rw [e]
  refine (Ideal.matmul_constant_zero_apply dot_S20000x64_S64x64_S20000x64_1_0_0_1_n_n none _ _ (ix2 p o)).trans ?_
  rw [← Equiv.sum_comp (contrEquiv1 dot_S20000x64_S64x64_S20000x64_1_0_0_1_n_n 64 rfl rfl).symm]
  refine Finset.sum_congr rfl fun k _ => ?_
  have hk := contrEquiv1_symm_val dot_S20000x64_S64x64_S20000x64_1_0_0_1_n_n 64 rfl rfl k
  generalize (contrEquiv1 dot_S20000x64_S64x64_S20000x64_1_0_0_1_n_n 64 rfl rfl).symm k = q at hk ⊢
  congr 1
  · refine (shapeCast_dropUnit_apply ![20000, 64] x0 _ _).trans (congrArg x0 ?_)
    funext a; refine Fin.ext ?_
    match a with
    | ⟨0, _⟩ => rfl
    | ⟨1, _⟩ => exact lhs_row (ix2 p o) q
    | ⟨2, _⟩ => exact (lhs_contr (ix2 p o) q).trans hk
  · refine (shapeCast_dropUnit_apply ![64, 64] x1 _ _).trans (congrArg x1 ?_)
    funext a; refine Fin.ext ?_
    match a with
    | ⟨0, _⟩ => rfl
    | ⟨1, _⟩ => exact (rhs_contr (ix2 p o) q).trans hk
    | ⟨2, _⟩ => exact rhs_col (ix2 p o) q

end Cert.KernelIdeal.MatmulValue

end
-- ==== Proof.MatmulArray.lean ====
/-
  The first region's output array.

  The grid has one point per pair (offset `k`, tile `q` of 20000 positions); the point writes back block
  `(k, q)` of the output, computed from block `(k, q)` of the gathered rows and from the whole weight matrix of
  offset `k`.  The blocks tile the output, so after the region the whole array is one function of the two input
  arrays as the region found them: `(k, p, o) ↦ ∑ i, g (k, p, i) · w (k, i, o)`.
-/
import proofs.«156856_j9268539425513_2_alg».proof.Proof.Gen.KernelIdeal.Frame
import proofs.«156856_j9268539425513_2_alg».proof.Proof.MatmulBlock

set_option maxRecDepth 16384

noncomputable section

namespace Cert.KernelIdeal.MatmulValue

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.KernelIdeal.Facts₀

variable (V : (c : Dev nD) → (b : Ref sig .tc) → Buf (Elt Ideal) ((c : Thread nD τ).loc b))

/-- The per-offset product of the whole arrays. -/
def offsetProd (g : Vec Ideal S27x60000x64 .bf16) (w : Vec Ideal S27x64x64 .bf16) : Vec Ideal S27x60000x64 .bf16 :=
  fun j => ∑ i : Fin 64,
    g (ix3 (⟨(j 0).val, (j 0).isLt⟩ : Fin 27) (⟨(j 1).val, (j 1).isLt⟩ : Fin 60000) i)
      * w (ix3 (⟨(j 0).val, (j 0).isLt⟩ : Fin 27) i (⟨(j 2).val, (j 2).isLt⟩ : Fin 64))

theorem zeros3 : (![0, 0, 0] : Fin 3 → Nat) = fun _ => 0 := funext fun a => by fin_cases a <;> rfl

/-- Where each window's block sits at a grid point: the gathered rows' and the output's blocks are the same
    (offset, tile) pair with the full channel axis; the weight's block is the offset's whole matrix. -/
theorem block_positions : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 26 ∧ win0_2.index t (1 : Fin 3) ≤ 2 :=
  (by decide +kernel : ∀ t : Fin grid0.N, _)

/-- Every (offset, tile) pair is some grid point's output block. -/
theorem block_onto : ∀ (q0 : Fin 27) (q1 : Fin 3), ∃ t : Fin cfg0.N, win0_2.index t = ![q0.val, q1.val, 0] :=
  (by decide +kernel : ∀ (q0 : Fin 27) (q1 : Fin 3), ∃ t : Fin grid0.N, win0_2.index t = ![q0.val, q1.val, 0])

/-- What a grid point writes back is its block of the per-offset product of the arrays as the region found them. -/
theorem flushed_eq (c : Dev nD) (t : Fin cfg0.N) :
    (dat0 V c).flushed 2 t = ((cfg0.win 2).blk t).view.read (Elt Ideal) (offsetProd (V c main_v10) (V c main_v1)) := by
  show (cfg0.win 2).cut (grid0.coords t) ((dat0 V c).after 2 t) = _
  rw [after0_2]
  unfold out0_2
  rw [View.canon_unit_zero zeros3]
  simp only [View.ld_unit_zero (S := S1x20000x64) zeros3, View.ld_unit_zero (S := S1x64x64) zeros3]
  obtain ⟨e0, e1, e2, e3, e4, e5, e6, e7, e8⟩ := block_positions t
  funext y
  obtain ⟨u, p, o, rfl⟩ : ∃ (u : Fin 1) (p : Fin 20000) (o : Fin 64), y = ix3 u p o := ⟨y 0, y 1, y 2, eq_ix3 y⟩
  refine (block_prod (iblk0 V c 0 t) (iblk0 V c 1 t) u p o).trans ?_
  show _ = offsetProd (V c main_v10) (V c main_v1) (((cfg0.win 2).blk t).view.emb (ix3 u p o))
  unfold offsetProd
  refine Finset.sum_congr rfl fun i _ => ?_
  have hu : u.val = 0 := by have := u.isLt; omega
  congr 1
  · show V c main_v10 (((cfg0.win 0).blk t).view.emb (ix3 (0 : Fin 1) p i)) = V c main_v10 _
    refine congrArg _ (funext fun a => Fin.ext ?_)
    match a with
    | ⟨0, _⟩ =>
      show win0_0.index t (0 : Fin 3) * 1 + 1 * 0 = win0_2.index t (0 : Fin 3) * 1 + 1 * u.val
      omega
    | ⟨1, _⟩ =>
      show win0_0.index t (1 : Fin 3) * 20000 + 1 * p.val = win0_2.index t (1 : Fin 3) * 20000 + 1 * p.val
      omega
    | ⟨2, _⟩ =>
      show win0_0.index t (2 : Fin 3) * 64 + 1 * i.val = i.val
      omega
  · show V c main_v1 (((cfg0.win 1).blk t).view.emb (ix3 (0 : Fin 1) i o)) = V c main_v1 _
    refine congrArg _ (funext fun a => Fin.ext ?_)
    match a with
    | ⟨0, _⟩ =>
      show win0_1.index t (0 : Fin 3) * 1 + 1 * 0 = win0_2.index t (0 : Fin 3) * 1 + 1 * u.val
      omega
    | ⟨1, _⟩ =>
      show win0_1.index t (1 : Fin 3) * 64 + 1 * i.val = i.val
      omega
    | ⟨2, _⟩ =>
      show win0_1.index t (2 : Fin 3) * 64 + 1 * o.val = win0_2.index t (2 : Fin 3) * 64 + 1 * o.val
      omega

/-- An index of the output is in a grid point's block iff each coordinate is in the block's range on its axis. -/
theorem mem_blk (t : Fin cfg0.N) (i : S27x60000x64.Idx) :
    i ∈ ((cfg0.win 2).blk t).view.set ↔ ∀ a : Fin 3, win0_2.index t a * S1x20000x64.size a ≤ (i a).val
      ∧ (i a).val < win0_2.index t a * S1x20000x64.size a + S1x20000x64.size a := by
  show i ∈ ((View.whole main_v11).slice (win0_2.rect t)).set ↔ _
  rw [View.set_slice_whole, Rect.mem_set_unit]
  exact Iff.rfl

/-- The blocks tile the output: position `p` of offset `k` is in the block of the point (k, p / 20000). -/
theorem cover (i : S27x60000x64.Idx) :
    ∃ t : Fin cfg0.N, (cfg0.win 2).flush t = true ∧ i ∈ ((cfg0.win 2).blk t).view.set := by
  have h0 : (i 0).val < 27 := (i 0).isLt
  have h1 : (i 1).val < 60000 := (i 1).isLt
  have h2 : (i 2).val < 64 := (i 2).isLt
  obtain ⟨t, ht⟩ := block_onto ⟨(i 0).val, h0⟩ ⟨(i 1).val / 20000, by omega⟩
  have q0 : win0_2.index t (0 : Fin 3) = (i 0).val := congrFun ht 0
  have q1 : win0_2.index t (1 : Fin 3) = (i 1).val / 20000 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 20000 ≤ (i 1).val ∧ (i 1).val < win0_2.index t (1 : Fin 3) * 20000 + 20000
    omega
  | ⟨2, _⟩ =>
    show win0_2.index t (2 : Fin 3) * 64 ≤ (i 2).val ∧ (i 2).val < win0_2.index t (2 : Fin 3) * 64 + 64
    omega

/-- The output array after the region: the per-offset product of the two input arrays as the region found them. -/
theorem final (c : Dev nD) :
    (dat0 V c).arrAt 2 cfg0.N = offsetProd (V c main_v10) (V c main_v1) :=
  (dat0 V c).arrAt_eq_of_cover 2 (offsetProd (V c main_v10) (V c main_v1)) (fun t _ => flushed_eq V c t) cover

end Cert.KernelIdeal.MatmulValue

end
-- ==== Proof.ReluBlock.lean ====
/-
  One grid point of the bias-and-threshold epilogue.

  The second region's body loads a block `s : [10000, 128]` and the doubled bias `b : [128]`, adds `b` to every
  row of `s` and takes the maximum with zero.  On the extended reals the stored block is
  `(r, l) ↦ max (s (r, l) + b l) 0`, the zero being the value of the all-zero word.
-/
import proofs.«156856_j9268539425513_2_alg».proof.Proof.Gen.KernelIdeal.Skeleton
import Idealize.ShloMosaic.Lib.Pipeline.Value
import Idealize.ShloMosaic.Lib.ValueIdx

set_option maxRecDepth 16384

noncomputable section

namespace Cert.KernelIdeal.ReluValue

open Cert.KernelIdeal Cert.KernelIdeal.Gen Idealize.ShloMosaic Idealize.ShloMosaic.TcCoe Idealize.ShloMosaic.ValueIdx
open Cert.KernelIdeal.Facts₀

/-- The stored block, element by element. -/
theorem block_relu (x0 : Vec Ideal S10000x128 .f32) (x1 : Vec Ideal S128 .f32) (r : Fin 10000) (l : Fin 128) :
    k1_pay1 x0 x1 (ix2 r l) = max (x0 (ix2 r l) + x1 (ix1 l)) (Ideal.ofBits .f32 0x00000000#32) := by
  unfold k1_pay1
  show max (shapeCast S10000x128 x0 _ (ix2 r l) + broadcastTo S10000x128 (shapeCast S1x128 (shapeCast S128 x1 _) _) _ (ix2 r l)) _ = _
  rw [shapeCast_self, shapeCast_self]
  refine congrArg₂ max (congrArg (x0 (ix2 r l) + ·) ?_) rfl
  refine (broadcastTo_apply _ Facts₀.broadcasts_S1x128_S10000x128 (ix2 r l) (ix2 (0 : Fin 1) l) (fun a => ?_)).trans ?_
  · match a with
    | ⟨0, _⟩ => rfl
    | ⟨1, _⟩ => rfl
  · refine (shapeCast_addUnit_apply ![128] x1 _ (ix2 (0 : Fin 1) l)).trans (congrArg x1 ?_)
    funext a
    match a with
    | ⟨0, _⟩ => rfl

end Cert.KernelIdeal.ReluValue

end
-- ==== Proof.ReluArray.lean ====
/-
  The second region's output array.

  The grid has one point per tile of 10000 rows of the `[100000, 128]` view; the point writes back that tile
  of the output, computed from the same tile of the input and from the whole doubled bias.  The tiles cover the
  output, so after the region the whole array is `(r, l) ↦ max (s (r, l) + b l) 0` of the two input arrays as the
  region found them.
-/
import proofs.«156856_j9268539425513_2_alg».proof.Proof.Gen.KernelIdeal.Frame
import proofs.«156856_j9268539425513_2_alg».proof.Proof.ReluBlock

set_option maxRecDepth 16384

noncomputable section

namespace Cert.KernelIdeal.ReluValue

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.KernelIdeal.Facts₀

variable (V : (c : Dev nD) → (b : Ref sig .tc) → Buf (Elt Ideal) ((c : Thread nD τ).loc b))

/-- The bias added to every row, then the maximum with zero, on the whole lane-dense view. -/
def biasRelu (s : Vec Ideal S100000x128 .f32) (b : Vec Ideal S128 .f32) : Vec Ideal S100000x128 .f32 :=
  fun j => max (s j + b (ix1 (⟨(j 1).val, (j 1).isLt⟩ : Fin 128))) (Ideal.ofBits .f32 0x00000000#32)

theorem zeros2 : (![0, 0] : Fin 2 → Nat) = fun _ => 0 := funext fun a => by fin_cases a <;> rfl
theorem zeros1 : (![0] : Fin 1 → Nat) = fun _ => 0 := funext fun a => by fin_cases a <;> rfl

/-- Where each window's block sits at a grid point: input and output tiles coincide; the bias is read whole. -/
theorem block_positions : ∀ t : Fin cfg1.N,
    win1_0.index t (0 : Fin 2) = win1_2.index t (0 : Fin 2)
    ∧ win1_0.index t (1 : Fin 2) = 0
    ∧ win1_1.index t (0 : Fin 1) = 0
    ∧ win1_2.index t (1 : Fin 2) = 0
    ∧ win1_2.index t (0 : Fin 2) ≤ 9 :=
  (by decide +kernel : ∀ t : Fin grid1.N, _)

/-- Every tile is some grid point's output block. -/
theorem block_onto : ∀ (q0 : Fin 10), ∃ t : Fin cfg1.N, win1_2.index t = ![q0.val, 0] :=
  (by decide +kernel : ∀ (q0 : Fin 10), ∃ t : Fin grid1.N, win1_2.index t = ![q0.val, 0])

/-- What a grid point writes back is its tile of `biasRelu` of the arrays as the region found them. -/
theorem flushed_eq (c : Dev nD) (t : Fin cfg1.N) :
    (dat1 V c).flushed 2 t = ((cfg1.win 2).blk t).view.read (Elt Ideal) (biasRelu (V c main_v23) (V c main_v24)) := by
  show (cfg1.win 2).cut (grid1.coords t) ((dat1 V c).after 2 t) = _
  rw [after1_2]
  unfold out1_2
  rw [View.canon_unit_zero zeros2]
  simp only [View.ld_unit_zero (S := S10000x128) zeros2, View.ld_unit_zero (S := S128) zeros1]
  obtain ⟨e0, e1, e2, e3, e4⟩ := block_positions t
  funext y
  obtain ⟨r, l, rfl⟩ : ∃ (r : Fin 10000) (l : Fin 128), y = ix2 r l := ⟨y 0, y 1, eq_ix2 y⟩
  refine (block_relu (iblk1 V c 0 t) (iblk1 V c 1 t) r l).trans ?_
  show _ = biasRelu (V c main_v23) (V c main_v24) (((cfg1.win 2).blk t).view.emb (ix2 r l))
  unfold biasRelu
  refine congrArg₂ max (congrArg₂ (· + ·) ?_ ?_) rfl
  · show V c main_v23 (((cfg1.win 0).blk t).view.emb (ix2 r l)) = V c main_v23 (((cfg1.win 2).blk t).view.emb (ix2 r l))
    refine congrArg _ (funext fun a => Fin.ext ?_)
    match a with
    | ⟨0, _⟩ =>
      show win1_0.index t (0 : Fin 2) * 10000 + 1 * r.val = win1_2.index t (0 : Fin 2) * 10000 + 1 * r.val
      omega
    | ⟨1, _⟩ =>
      show win1_0.index t (1 : Fin 2) * 128 + 1 * l.val = win1_2.index t (1 : Fin 2) * 128 + 1 * l.val
      omega
  · show V c main_v24 (((cfg1.win 1).blk t).view.emb (ix1 l)) = V c main_v24 _
    refine congrArg _ (funext fun a => Fin.ext ?_)
    match a with
    | ⟨0, _⟩ =>
      show win1_1.index t (0 : Fin 1) * 128 + 1 * l.val = win1_2.index t (1 : Fin 2) * 128 + 1 * l.val
      omega

/-- An index of the output is in a grid point's block iff each coordinate is in the block's range on its axis. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v25).slice (win1_2.rect t)).set ↔ _
  rw [View.set_slice_whole, Rect.mem_set_unit]
  exact Iff.rfl

/-- The tiles cover the output: row `r` is in the tile of the point r / 10000. -/
theorem cover (i : S100000x128.Idx) :
    ∃ t : Fin cfg1.N, (cfg1.win 2).flush t = true ∧ i ∈ ((cfg1.win 2).blk t).view.set := by
  have h0 : (i 0).val < 100000 := (i 0).isLt
  have h1 : (i 1).val < 128 := (i 1).isLt
  obtain ⟨t, ht⟩ := block_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- The output array after the region. -/
theorem final (c : Dev nD) :
    (dat1 V c).arrAt 2 cfg1.N = biasRelu (V c main_v23) (V c main_v24) :=
  (dat1 V c).arrAt_eq_of_cover 2 (biasRelu (V c main_v23) (V c main_v24)) (fun t _ => flushed_eq V c t) cover

end Cert.KernelIdeal.ReluValue

end
-- ==== Proof.Boundaries.lean ====
/-
  The idealized kernel's result as one function of its arguments.

  Between the launch and the return the buffers pass five boundaries: the host operations before the first
  region (the row numbers are normalised, the feature rows gathered and laid out per offset), the first region
  (the per-offset product), the host operations between the regions (the products are scatter-added into a zero
  array by output row and the sum is viewed 128 lanes wide; the bias is doubled), the second region (bias and
  threshold), and the final reshape.  Each boundary's contents at the buffer the next step reads is read off
  here, and composed: the result array is named as a term of the argument arrays.
-/
import proofs.«156856_j9268539425513_2_alg».proof.Proof.Gen.KernelIdeal.Frame
import proofs.«156856_j9268539425513_2_alg».proof.Proof.MatmulArray
import proofs.«156856_j9268539425513_2_alg».proof.Proof.ReluArray
import Idealize.ShloMosaic.Lib.StableHlo.Run

set_option maxRecDepth 16384

noncomputable section

namespace Cert.KernelIdeal.RunValue

open Cert.KernelIdeal Idealize.ShloMosaic Idealize.ShloMosaic.TcCoe Idealize.ShloMosaic.ValueIdx
open Cert.KernelIdeal.Gen (W0 W1 V1 W2 V2 W3 V3 W4 V4 W5 W2_arr W2_of_ne W4_arr W4_of_ne hostOps0 hostOps1 hostOps2 dat0 dat1)
open Idealize.SL.Sem Idealize.ShloMosaic.StableHlo
open Idealize.ShloMosaic.Pipeline (Dat Cfg Window)
open Cert.KernelIdeal.Facts₀
open Cert.KernelIdeal.MatmulValue Cert.KernelIdeal.ReluValue

/-- The row numbers of one index table, flattened, a negative number counted from the end, as a column. -/
def rowNumbers (x : IVec S27x60000 32) : IVec S1620000x1 32 :=
  broadcastInDim S1620000x1 ![0] bcast_S1620000_S1620000x1_0
    (select (cmpi .slt (shapeCast S1620000 x shapeCasts_S27x60000_S1620000) (broadcastInDim S1620000 ![] bcast_S_S1620000 (constantI S_ 32 0#32)))
      (addi (shapeCast S1620000 x shapeCasts_S27x60000_S1620000) (broadcastInDim S1620000 ![] bcast_S_S1620000 (constantI S_ 32 200000#32)))
      (shapeCast S1620000 x shapeCasts_S27x60000_S1620000))

/-- The gathered feature rows, per offset. -/
def gathered (x0 : FVec Ideal S200000x64 .f32) (x3 : IVec S27x60000 32) : FVec Ideal S27x60000x64 .bf16 :=
  shapeCast S27x60000x64
    (Host.gather gather_S200000x64_S1620000x1_S1620000x64_1_0_n_n_0_1_164 (truncf (F := Ideal) .bf16 x0 bitsLt_bf16_f32) (rowNumbers x3))
    shapeCasts_S1620000x64_S27x60000x64

/-- The products scatter-added by output row into a zero array. -/
def scattered (X : FVec Ideal S1620000x64 .f32) (x4 : IVec S27x60000 32) : FVec Ideal S200000x64 .f32 :=
  Host.scatterAdd (F := Ideal) scatter_S200000x64_S1620000x1_S1620000x64_1_0_0_1
    (broadcastInDim S200000x64 ![] bcast_S_S200000x64 (constant (F := Ideal) S_ .f32 0x00000000#32)) (rowNumbers x4) X

/-- The bias written twice, for the 128-lane view. -/
def doubled (x2 : FVec Ideal S64 .f32) : FVec Ideal S128 .f32 :=
  concatenate S128 0 [⟨S64, x2⟩, ⟨S64, x2⟩] concatenates_S64_S64_S128_d0

/-- The whole result as a term of the arguments. -/
def result (x0 : FVec Ideal S200000x64 .f32) (x1 : FVec Ideal S27x64x64 .f32) (x2 : FVec Ideal S64 .f32) (x3 x4 : IVec S27x60000 32) :
    FVec Ideal S200000x64 .f32 :=
  shapeCast S200000x64
    (biasRelu
      (shapeCast S100000x128
        (scattered (extf (F := Ideal) .f32 (shapeCast S1620000x64 (offsetProd (gathered x0 x3) (truncf (F := Ideal) .bf16 x1 bitsLt_bf16_f32))
          shapeCasts_S27x60000x64_S1620000x64) bitsLt_bf16_f32) x4)
        shapeCasts_S200000x64_S100000x128)
      (doubled x2))
    shapeCasts_S100000x128_S200000x64

variable (m : (ℓ : Loc nD τ sig) → Buf (Elt Ideal) ℓ) (ρ : Dev nD → PrngReg)

/-! ## Region 0's entry -/

theorem entry0_rows (c : Dev nD) :
    V1 m ρ c main_v10 = gathered (m ((c : Thread nD τ).loc main_arg0)) (m ((c : Thread nD τ).loc main_arg3)) := by
  show StableHlo.after hostOps0 (W0 m ρ c) (Proc.devRef .tc main_v10) = _
  after_results <;> rfl

theorem entry0_weight (c : Dev nD) :
    V1 m ρ c main_v1 = truncf (F := Ideal) .bf16 (m ((c : Thread nD τ).loc main_arg1)) bitsLt_bf16_f32 := by
  show StableHlo.after hostOps0 (W0 m ρ c) (Proc.devRef .tc main_v1) = _
  after_results <;> rfl

/-! ## Region 0's exit -/

theorem exit0_prod (c : Dev nD) :
    W2 m ρ c (Proc.devRef .tc main_v11)
      = offsetProd (gathered (m ((c : Thread nD τ).loc main_arg0)) (m ((c : Thread nD τ).loc main_arg3)))
          (truncf (F := Ideal) .bf16 (m ((c : Thread nD τ).loc main_arg1)) bitsLt_bf16_f32) := by
  refine (W2_arr m ρ c 2).trans ?_
  rw [MatmulValue.final (V1 m ρ) c, entry0_rows, entry0_weight]

theorem launch_kept (c : Dev nD) (b : Ref sig .tc)
    (h : StableHlo.after hostOps0 (W0 m ρ c) (Proc.devRef .tc b) = W0 m ρ c (Proc.devRef .tc b))
    (hb : ∀ w, Pipeline.arrRef spec0 w ≠ b) :
    W2 m ρ c (Proc.devRef .tc b) = m ((c : Thread nD τ).loc b) :=
  (W2_of_ne m ρ c b hb).trans h

theorem exit0_arg4 (c : Dev nD) : W2 m ρ c (Proc.devRef .tc main_arg4) = m ((c : Thread nD τ).loc main_arg4) :=
  launch_kept m ρ c main_arg4 (by after_results <;> rfl) (by decide)

theorem exit0_arg2 (c : Dev nD) : W2 m ρ c (Proc.devRef .tc main_arg2) = m ((c : Thread nD τ).loc main_arg2) :=
  launch_kept m ρ c main_arg2 (by after_results <;> rfl) (by decide)

/-! ## Region 1's entry -/

theorem entry1_sum (c : Dev nD) :
    V3 m ρ c main_v23
      = shapeCast S100000x128
          (scattered (extf (F := Ideal) .f32 (shapeCast S1620000x64 (W2 m ρ c (Proc.devRef .tc main_v11)) shapeCasts_S27x60000x64_S1620000x64) bitsLt_bf16_f32)
            (W2 m ρ c (Proc.devRef .tc main_arg4)))
          shapeCasts_S200000x64_S100000x128 := by
  show StableHlo.after hostOps1 (W2 m ρ c) (Proc.devRef .tc main_v23) = _
  after_results <;> rfl

theorem entry1_bias (c : Dev nD) :
    V3 m ρ c main_v24 = doubled (W2 m ρ c (Proc.devRef .tc main_arg2)) := by
  show StableHlo.after hostOps1 (W2 m ρ c) (Proc.devRef .tc main_v24) = _
  after_results <;> rfl

/-! ## Region 1's exit, and the return -/

theorem exit1_out (c : Dev nD) :
    W4 m ρ c (Proc.devRef .tc main_v25) = biasRelu (V3 m ρ c main_v23) (V3 m ρ c main_v24) :=
  (W4_arr m ρ c 2).trans (ReluValue.final (V3 m ρ) c)

/-- The result buffer at the return is `result` of the argument arrays as launched. -/
theorem out_eq (c : Dev nD) :
    W5 m ρ c (Proc.devRef .tc main_v26)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  have h : W5 m ρ c (Proc.devRef .tc main_v26)
      = shapeCast S200000x64 (W4 m ρ c (Proc.devRef .tc main_v25)) shapeCasts_S100000x128_S200000x64 := by
    show StableHlo.after hostOps2 (W4 m ρ c) (Proc.devRef .tc main_v26) = _
    after_results <;> rfl
  rw [h, exit1_out, entry1_sum, entry1_bias, exit0_prod, exit0_arg4, exit0_arg2]
  rfl

end Cert.KernelIdeal.RunValue

end
-- ==== Proof.LibGather.lean ====
/-
  A row gather read at an index.

  `x[idx]` of a matrix `x : [N, C]` at an integer array of row numbers lowers to `stablehlo.gather` with
  the row axis collapsed, the column axis the one offset axis, and the row numbers carried on a trailing
  unit axis.  Element `(…, j)` of the result is `x` at row `idx[…, 0]`, read as a signed integer and clamped
  into `[0, N − 1]`, and column `j`.  Two layouts of the row numbers are read here: a list `[R, 1]` giving
  a result `[R, C]`, and a table `[A, B, 1]` giving a result `[A, B, C]`.
-/
import Idealize.ShloMosaic.Lib.ValueIdx

noncomputable section

namespace Idealize.ShloMosaic.LibGather

open Idealize.ShloMosaic Idealize.ShloMosaic.ValueIdx

variable {α : Type}

/-- The row an integer word names in a matrix of `N` rows: the word read signed, clamped into `[0, N − 1]`. -/
def rowOf {w : Nat} (N : Nat) (hN : 0 < N) (v : BitVec w) : Fin N := ⟨min v.toInt.toNat (N - 1), by omega⟩

/-! ## Row numbers as a list `[R, 1]` -/

/-- The dimension numbers of `x[idx]` for `x : [N, C]`, `idx : [R, 1]`, result `[R, C]`. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather of rows from a list of row numbers, at `(r, j)`: row `idx[r, 0]` (signed, clamped), column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (j : Fin C) :
    Host.gather (rowsDims N C R wf) x idx (ix2 r j) = x (ix2 (rowOf N hN (idx (ix2 r (0 : Fin 1)))) j) := by
  unfold Host.gather
  congr 1
  funext a
  refine Fin.ext ?_
  match a with
  | ⟨0, _⟩ =>
    show (rowsDims N C R wf).start (ix2 r j) idx 0 + (rowsDims N C R wf).batchCoord (ix2 r j) 0
      + (rowsDims N C R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r j) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r j) idx 1 + (rowsDims N C R wf).batchCoord (ix2 r j) 1
      + (rowsDims N C R wf).offCoord (ix2 r j) 1 = _
    rw [GatherDims.batchCoord_eq_zero _ _ _ List.not_mem_nil]
    unfold GatherDims.start
    rw [dif_neg (show ¬ (1 : Fin 2) ∈ (rowsDims N C R wf).startIndexMap from
      fun h => Nat.one_ne_zero (congrArg Fin.val (List.mem_singleton.mp h)))]
    simp only [Nat.add_zero, Nat.zero_add]
    rfl

/-! ## Row numbers as a table `[A, B, 1]` -/

/-- The dimension numbers of `x[idx]` for `x : [N, C]`, `idx : [A, B, 1]`, result `[A, B, C]`. -/
abbrev tableDims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather of rows from a table of row numbers, at `(a, b, j)`: row `idx[a, b, 0]` (signed, clamped),
    column `j`. -/
theorem gather_table_apply {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (j : Fin C) :
    Host.gather (tableDims N C A B wf) x idx (ix3 a b j) = x (ix2 (rowOf N hN (idx (ix3 a b (0 : Fin 1)))) j) := by
  unfold Host.gather
  congr 1
  funext e
  refine Fin.ext ?_
  match e with
  | ⟨0, _⟩ =>
    show (tableDims N C A B wf).start (ix3 a b j) idx 0 + (tableDims N C A B wf).batchCoord (ix3 a b j) 0
      + (tableDims N C A B wf).offCoord (ix3 a b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (tableDims N C A B wf).startIndexMap from List.mem_singleton.mpr rfl)]
    have hsi : (tableDims N C A B wf).siIdx (ix3 a b j) ⟨List.idxOf (0 : Fin 2) (tableDims N C A B wf).startIndexMap,
        List.idxOf_lt_length_iff.2 (List.mem_singleton.mpr rfl)⟩ = ix3 a b (0 : Fin 1) := by
      funext d; refine Fin.ext ?_
      match d with
      | ⟨0, _⟩ => rfl
      | ⟨1, _⟩ => rfl
      | ⟨2, _⟩ => rfl
    rw [hsi]
    rfl
  | ⟨1, _⟩ =>
    show (tableDims N C A B wf).start (ix3 a b j) idx 1 + (tableDims N C A B wf).batchCoord (ix3 a b j) 1
      + (tableDims N C A B wf).offCoord (ix3 a b j) 1 = _
    rw [GatherDims.batchCoord_eq_zero _ _ _ List.not_mem_nil]
    unfold GatherDims.start
    rw [dif_neg (show ¬ (1 : Fin 2) ∈ (tableDims N C A B wf).startIndexMap from
      fun h => Nat.one_ne_zero (congrArg Fin.val (List.mem_singleton.mp h)))]
    simp only [Nat.add_zero, Nat.zero_add]
    rfl

end Idealize.ShloMosaic.LibGather

end
-- ==== Proof.Bridge.lean ====
/-
  The two sides are one function.

  Index by index, on the extended reals:
  * gathering rows by the flattened row numbers and laying the result out per offset is gathering by the
    table of row numbers — both read row `idx[k, p]` (a negative number counted from the end, then clamped)
    of the feature matrix;
  * the kernel's per-offset product and the reference's batched contraction are the same sum over the
    contracted axis;
  * adding the doubled bias on the 128-lane view and thresholding, then viewing the result 64 lanes wide again,
    is adding the bias to every row and thresholding: entry `(n, o)` sits at lane `(n mod 2)·64 + o` of row `n / 2`
    of the view, where the doubled bias reads `bias o`.
  The scatter-add between the second and the third is applied on both sides to equal operands and is never opened.
-/
import proofs.«156856_j9268539425513_2_alg».proof.Proof.Boundaries
import proofs.«156856_j9268539425513_2_alg».proof.Proof.Gen.ReferenceIdeal.Read
import proofs.«156856_j9268539425513_2_alg».proof.Proof.LibGather
import Idealize.ShloMosaic.Lib.Pipeline.Value
import Idealize.ShloMosaic.Lib.ValueIdx

set_option maxRecDepth 16384

noncomputable section

namespace Cert.Bridge

open Cert.KernelIdeal Idealize.ShloMosaic Idealize.ShloMosaic.TcCoe Idealize.ShloMosaic.ValueIdx
open Cert.KernelIdeal.Facts₀
open Cert.KernelIdeal.RunValue Cert.KernelIdeal.MatmulValue Cert.KernelIdeal.ReluValue

/-! ## The row numbers -/

/-- A row number as the gather reads it before clamping: a negative one counted from the end. -/
def normRow (v : BitVec 32) : BitVec 32 := Scalar.select (IntOp.cmpi .slt v 0#32) (IntOp.addi v 200000#32) v

/-- The kernel's column of row numbers at flat position `k · 60000 + p` is the table's entry `(k, p)`, normalised. -/
theorem rowNumbers_apply (x : IVec S27x60000 32) (k : Fin 27) (p : Fin 60000) (r : Fin 1620000)
    (hr : r.val = k.val * 60000 + p.val) :
    rowNumbers x (ix2 r (0 : Fin 1)) = normRow (x (ix2 k p)) := by
  unfold rowNumbers
  refine (broadcastInDim_apply _ bcast_S1620000_S1620000x1_0 _ (ix2 r (0 : Fin 1)) (ix1 r) (fun a => ?_)).trans ?_
  · match a with
    | ⟨0, _⟩ => show r.val = if (1620000 : Nat) = 1 then 0 else r.val; rw [if_neg (by decide)]
  · have e : shapeCast S1620000 x shapeCasts_S27x60000_S1620000 (ix1 r) = x (ix2 k p) :=
      shapeCast_apply x shapeCasts_S27x60000_S1620000 (ix1 r) (ix2 k p) (by
        rw [Shape.rowMajor_val_two, Shape.rowMajor_val_one]
        show k.val * 60000 + p.val = r.val
        omega)
    have z : ∀ w : BitVec 32, broadcastInDim S1620000 ![] bcast_S_S1620000 (constantI S_ 32 w) (ix1 r) = w := fun w =>
      broadcastInDim_apply _ bcast_S_S1620000 (constantI S_ 32 w) (ix1 r) ix0 (fun a => a.elim0)
    show Scalar.select
        (IntOp.cmpi .slt (shapeCast S1620000 x shapeCasts_S27x60000_S1620000 (ix1 r))
          (broadcastInDim S1620000 ![] bcast_S_S1620000 (constantI S_ 32 0#32) (ix1 r)))
        (IntOp.addi (shapeCast S1620000 x shapeCasts_S27x60000_S1620000 (ix1 r))
          (broadcastInDim S1620000 ![] bcast_S_S1620000 (constantI S_ 32 200000#32) (ix1 r)))
        (shapeCast S1620000 x shapeCasts_S27x60000_S1620000 (ix1 r)) = _
    rw [e, z, z]
    rfl

/-- The reference's table of row numbers at `(k, p)` is the same normalised entry. -/
theorem ref_rowNumbers_apply (x : IVec S27x60000 32) (k : Fin 27) (p : Fin 60000) :
    Cert.ReferenceIdeal.Read.val_main_v5 (F := Ideal) x (ix3 k p (0 : Fin 1)) = normRow (x (ix2 k p)) := by
  rw [Cert.ReferenceIdeal.Read.val_main_v5_apply]
  have e : Cert.ReferenceIdeal.Read.idx_main_v5 (ix3 k p (0 : Fin 1)) = ix2 k p := funext fun a => by
    match a with
    | ⟨0, _⟩ => rfl
    | ⟨1, _⟩ => rfl
  rw [e, Cert.ReferenceIdeal.Read.val_main_v4_apply, Cert.ReferenceIdeal.Read.val_main_v1_apply, Cert.ReferenceIdeal.Read.val_main_v3_apply,
    Cert.ReferenceIdeal.Read.val_main_v0_apply, Cert.ReferenceIdeal.Read.val_main_v2_apply]
  rfl

/-! ## The gathered rows -/

theorem gathered_eq (x0 : FVec Ideal S200000x64 .f32) (x3 : IVec S27x60000 32) :
    gathered x0 x3 = Cert.ReferenceIdeal.Read.val_main_v6 (F := Ideal) x0 x3 := by
  funext j
  obtain ⟨k, p, i, rfl⟩ : ∃ (k : Fin 27) (p : Fin 60000) (i : Fin 64), j = ix3 k p i := ⟨j 0, j 1, j 2, eq_ix3 j⟩
  have hr : k.val * 60000 + p.val < 1620000 := by have := k.isLt; have := p.isLt; omega
  unfold gathered
  refine (shapeCast_apply _ shapeCasts_S1620000x64_S27x60000x64 (ix3 k p i)
    (ix2 (⟨k.val * 60000 + p.val, hr⟩ : Fin 1620000) i) ?_).trans ?_
  · rw [Shape.rowMajor_val_two, Shape.rowMajor_val_three]
    rfl
  refine (LibGather.gather_rows_apply (N := 200000) (C := 64) (R := 1620000) (by decide)
    gather_S200000x64_S1620000x1_S1620000x64_1_0_n_n_0_1_164_wf (truncf (F := Ideal) .bf16 x0 bitsLt_bf16_f32) (rowNumbers x3)
    ⟨k.val * 60000 + p.val, hr⟩ i).trans ?_
  rw [rowNumbers_apply x3 k p ⟨k.val * 60000 + p.val, hr⟩ rfl]
  unfold Cert.ReferenceIdeal.Read.val_main_v6
  refine Eq.trans ?_ (LibGather.gather_table_apply (N := 200000) (C := 64) (A := 27) (B := 60000) (by decide)
    Cert.ReferenceIdeal.Facts₀.gather_S200000x64_S27x60000x1_S27x60000x64_2_0_n_n_0_2_164_wf x0 (Cert.ReferenceIdeal.Read.val_main_v5 (F := Ideal) x3) k p i).symm
  rw [ref_rowNumbers_apply]
  rfl

/-! ## The per-offset product -/

theorem prod_eq (x0 : FVec Ideal S200000x64 .f32) (x1 : FVec Ideal S27x64x64 .f32) (x3 : IVec S27x60000 32) :
    offsetProd (Cert.ReferenceIdeal.Read.val_main_v6 (F := Ideal) x0 x3) (truncf (F := Ideal) .bf16 x1 bitsLt_bf16_f32)
      = Cert.ReferenceIdeal.Read.val_main_v7 (F := Ideal) x0 x1 x3 := by
  funext j
  rw [Cert.ReferenceIdeal.Read.val_main_v7_apply]
  unfold offsetProd
  refine Finset.sum_congr rfl fun i _ => ?_
  congr 1
  · refine congrArg _ (funext fun a => ?_)
    match a with
    | ⟨0, _⟩ => rfl
    | ⟨1, _⟩ => rfl
    | ⟨2, _⟩ => rfl
  · show x1 _ = x1 _
    refine congrArg _ (funext fun a => ?_)
    match a with
    | ⟨0, _⟩ => rfl
    | ⟨1, _⟩ => rfl
    | ⟨2, _⟩ => rfl

/-! ## The epilogue -/

theorem epilogue_eq (S : FVec Ideal S200000x64 .f32) (x2 : FVec Ideal S64 .f32) :
    shapeCast S200000x64 (biasRelu (shapeCast S100000x128 S shapeCasts_S200000x64_S100000x128) (doubled x2))
        shapeCasts_S100000x128_S200000x64
      = maximumf (addf S (Cert.ReferenceIdeal.Read.val_main_v19 (F := Ideal) x2)) (Cert.ReferenceIdeal.Read.val_main_call0_v0 (F := Ideal)) := by
  funext j
  obtain ⟨n, o, rfl⟩ : ∃ (n : Fin 200000) (o : Fin 64), j = ix2 n o := ⟨j 0, j 1, eq_ix2 j⟩
  have hn := n.isLt
  have ho := o.isLt
  have hr : n.val / 2 < 100000 := by omega
  have hl : n.val % 2 * 64 + o.val < 128 := by omega
  refine (shapeCast_apply _ shapeCasts_S100000x128_S200000x64 (ix2 n o)
    (ix2 (⟨n.val / 2, hr⟩ : Fin 100000) (⟨n.val % 2 * 64 + o.val, hl⟩ : Fin 128)) ?_).trans ?_
  · rw [Shape.rowMajor_val_two, Shape.rowMajor_val_two]
    show n.val / 2 * 128 + (n.val % 2 * 64 + o.val) = n.val * 64 + o.val
    omega
  unfold biasRelu
  show max (shapeCast S100000x128 S shapeCasts_S200000x64_S100000x128
        (ix2 (⟨n.val / 2, hr⟩ : Fin 100000) (⟨n.val % 2 * 64 + o.val, hl⟩ : Fin 128))
      + doubled x2 (ix1 (⟨n.val % 2 * 64 + o.val, hl⟩ : Fin 128))) (Ideal.ofBits .f32 0x00000000#32)
    = max (S (ix2 n o) + Cert.ReferenceIdeal.Read.val_main_v19 (F := Ideal) x2 (ix2 n o)) (Cert.ReferenceIdeal.Read.val_main_call0_v0 (F := Ideal) (ix2 n o))
  refine congrArg₂ max (congrArg₂ (· + ·) ?_ ?_) ?_
  · exact shapeCast_apply S shapeCasts_S200000x64_S100000x128 _ (ix2 n o) (by
      rw [Shape.rowMajor_val_two, Shape.rowMajor_val_two]
      show n.val * 64 + o.val = n.val / 2 * 128 + (n.val % 2 * 64 + o.val)
      omega)
  · rw [Cert.ReferenceIdeal.Read.val_main_v19_apply, Cert.ReferenceIdeal.Read.val_main_v18_apply]
    have e : Cert.ReferenceIdeal.Read.idx_main_v18 (Cert.ReferenceIdeal.Read.idx_main_v19 (ix2 n o)) = ix1 o := funext fun a => by
      match a with
      | ⟨0, _⟩ => rfl
    rw [e]
    unfold doubled
    by_cases h : n.val % 2 = 0
    · exact concatenate_pair_apply_left (0 : Fin 1) x2 x2 concatenates_S64_S64_S128_d0
        (ix1 (⟨n.val % 2 * 64 + o.val, hl⟩ : Fin 128)) rfl (ix1 o) (fun b => by
          match b with
          | ⟨0, _⟩ => show o.val = n.val % 2 * 64 + o.val; omega)
    · exact concatenate_pair_apply_right (0 : Fin 1) x2 x2 concatenates_S64_S64_S128_d0
        (ix1 (⟨n.val % 2 * 64 + o.val, hl⟩ : Fin 128)) rfl rfl (ix1 o)
        (fun b hb => absurd (Fin.ext (by have hb' : b.val < 1 := b.isLt; show b.val = 0; omega)) hb)
        (by show o.val + 64 = n.val % 2 * 64 + o.val; omega)
  · rw [Cert.ReferenceIdeal.Read.val_main_call0_v0_apply]
    rfl

/-! ## The whole result -/

theorem result_eq (x0 : FVec Ideal S200000x64 .f32) (x1 : FVec Ideal S27x64x64 .f32) (x2 : FVec Ideal S64 .f32)
    (x3 x4 : IVec S27x60000 32) :
    result x0 x1 x2 x3 x4 = Cert.ReferenceIdeal.Read.val_main_v21 (F := Ideal) x0 x1 x2 x3 x4 := by
  unfold result
  rw [epilogue_eq, gathered_eq, prod_eq]
  rfl

end Cert.Bridge

end
-- ==== Proof.lean ====
/-
  A sparse convolution over active sites: for each of 27 kernel offsets, 60000 (input row, output row) pairs;
  the input rows of a `[200000, 64]` feature matrix are gathered, multiplied by the offset's `[64, 64]` weight
  matrix, and scatter-added into the output rows; a bias is added to every row and the result thresholded at zero.

  The kernel does the gather and the scatter-add on the host, the per-offset products in one pipelined region
  (one grid point per offset and tile of 20000 pairs) and the bias and threshold in a second one, on a view of the
  sum that is 128 lanes wide, with the bias doubled.  The reference gathers by the two-dimensional index table,
  contracts with one batched `dot_general`, scatter-adds, adds the broadcast bias and thresholds.

  On the extended reals the two results are the same array, element by element, for every input:
  `max (bias o + ∑ over the pairs (k, p) sent to row n of ∑ i, feats (row k p, i) · weight (k, i, o)) 0`, the sum over the
  pairs being the one scatter-add both programs apply to equal operands.  No law that needs finiteness is used:
  the per-offset products are the same sums term by term, and the rest is a matter of where an entry sits.

  Here: the three frames (the kernels' are the generated ones; the reference's is its generated run with the result
  dropped), `preserves` (the idealization rewrote nothing), and `algebraic` from the kernel's run with its result named
  (KernelRun, Boundaries), the reference's generated run, and the equality of the two terms (Bridge).
-/
import proofs.«156856_j9268539425513_2_alg».proof.Defs
import proofs.«156856_j9268539425513_2_alg».proof.Proof.Gen.Kernel
import proofs.«156856_j9268539425513_2_alg».proof.Proof.Gen.Kernel.Skeleton
import proofs.«156856_j9268539425513_2_alg».proof.Proof.Gen.Kernel.Launch
import proofs.«156856_j9268539425513_2_alg».proof.Proof.Gen.Kernel.Points
import proofs.«156856_j9268539425513_2_alg».proof.Proof.Gen.Kernel.Frame
import proofs.«156856_j9268539425513_2_alg».proof.Proof.Gen.KernelIdeal
import proofs.«156856_j9268539425513_2_alg».proof.Proof.Gen.KernelIdeal.Skeleton
import proofs.«156856_j9268539425513_2_alg».proof.Proof.Gen.KernelIdeal.Launch
import proofs.«156856_j9268539425513_2_alg».proof.Proof.Gen.KernelIdeal.Points
import proofs.«156856_j9268539425513_2_alg».proof.Proof.Gen.KernelIdeal.Frame
import proofs.«156856_j9268539425513_2_alg».proof.Proof.Gen.ReferenceIdeal
import proofs.«156856_j9268539425513_2_alg».proof.Proof.Gen.Pre_finite_inputs
import proofs.«156856_j9268539425513_2_alg».proof.Proof.Gen.ReferenceIdeal.Run
import proofs.«156856_j9268539425513_2_alg».proof.Proof.Gen.ReferenceIdeal.Read
import proofs.«156856_j9268539425513_2_alg».proof.Proof.KernelRun
import proofs.«156856_j9268539425513_2_alg».proof.Proof.Boundaries
import proofs.«156856_j9268539425513_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the same function of the argument arrays. -/
theorem algebraic : Cert.algebraic_KernelIdeal_ReferenceIdeal := by
  intro m ρ m' ρ' _ hagree
  refine ⟨fun c => Cert.KernelIdeal.RunValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.RunValue.out_eq m ρ c), (h c).2⟩)
      (Cert.KernelIdeal.RunValue.run_out m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, (hagree c).1, (hagree c).2.1, (hagree c).2.2.1, (hagree c).2.2.2.1,
      (hagree c).2.2.2.2]
    exact (Cert.Bridge.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
